-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x64x512 : S_.BroadcastsInDim S2x64x512 (![] : Fin 0 → Fin S2x64x512.rank)
  reducesTo_S2x64x512_S_d0_1_2 : S2x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x256x512 .f32) (main_arg1 : FVec F S2x64x512 .f32) (main_arg2 : FVec F S512x1024 .f32) (main_arg3 : FVec F S512 .f32) (main_arg4 : FVec F S4096x512 .f32) (main_arg5 : FVec F S4096 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x64x512 .f32 := Host.absf main_arg1
  let main_cst_0 : FVec F S_ .f32 := constant S_ .f32 0x7F800000#32
  let main_v5 : FVec F S2x64x512 .f32 := broadcastInDim S2x64x512 ![] bcast_S_S2x64x512 main_cst_0
  let main_v6 : IVec S2x64x512 1 := cmpf .olt main_v4 main_v5
  let main_c_1 : IVec S_ 1 := constantI S_ 1 1#1
  let main_v7 : IVec S_ 1 := (fun x v => Host.reduce IntOp.andi x v reducesTo_S2x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S1x512 : Shape := ⟨2, ![1, 512]⟩
abbrev S1x4096 : Shape := ⟨2, ![1, 4096]⟩
abbrev S2x256x64x4096 : Shape := ⟨4, ![2, 256, 64, 4096]⟩
abbrev S1x32x512 : Shape := ⟨3, ![1, 32, 512]⟩
abbrev S1x64x512 : Shape := ⟨3, ![1, 64, 512]⟩
abbrev S512x512 : Shape := ⟨2, ![512, 512]⟩
abbrev S1x32x64x512 : Shape := ⟨4, ![1, 32, 64, 512]⟩
abbrev S2048x512 : Shape := ⟨2, ![2048, 512]⟩
abbrev S32x512 : Shape := ⟨2, ![32, 512]⟩
abbrev S64x512 : Shape := ⟨2, ![64, 512]⟩
abbrev S1x1x512 : Shape := ⟨3, ![1, 1, 512]⟩
abbrev S32x1x512 : Shape := ⟨3, ![32, 1, 512]⟩
abbrev S32x64x512 : Shape := ⟨3, ![32, 64, 512]⟩

abbrev nBuf : Space → Nat
  | .hbm => 13
  | .vmem => 13
  | .smem => 0
  | _ => 0

abbrev bufTy : (tb : Table) → Fin (tcTables nBuf tb) → BufTy
  | .hbm, ⟨0, _⟩ => ⟨S2x256x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S4096x512, .f32⟩
  | .hbm, ⟨5, _⟩ => ⟨S4096, .f32⟩
  | .hbm, ⟨6, _⟩ => ⟨S2x256x512, .bf16⟩
  | .hbm, ⟨7, _⟩ => ⟨S2x64x512, .bf16⟩
  | .hbm, ⟨8, _⟩ => ⟨S512x1024, .bf16⟩
  | .hbm, ⟨9, _⟩ => ⟨S4096x512, .bf16⟩
  | .hbm, ⟨10, _⟩ => ⟨S1x512, .f32⟩
  | .hbm, ⟨11, _⟩ => ⟨S1x4096, .f32⟩
  | .hbm, ⟨12, _⟩ => ⟨S2x256x64x4096, .f32⟩
  | .local _ .vmem, ⟨0, _⟩ => ⟨S1x32x512, .bf16⟩
  | .local _ .vmem, ⟨1, _⟩ => ⟨S1x32x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x1024, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x32x64x512, .f32⟩
  | .local _ .vmem, ⟨11, _⟩ => ⟨S1x32x64x512, .f32⟩
  | .local _ .vmem, ⟨12, _⟩ => ⟨S2048x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x32x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bitsLt_bf16_f32 : FTy.bits .bf16 < FTy.bits .f32
  shapeCasts_S512_S1x512 : S512.ShapeCasts S1x512
  shapeCasts_S4096_S1x4096 : S4096.ShapeCasts S1x4096
  inb_S512x1024_S512x512_0_0 : ∀ a, (![0, 0] : Fin 2 → Nat) a + S512x512.size a ≤ S512x1024.size a
  h_S512x512 : 0 < S512x512.numel
  shapeCasts_S512x512_S512x512 : S512x512.ShapeCasts S512x512
  inb_S512x1024_S512x512_0_512 : ∀ a, (![0, 512] : Fin 2 → Nat) a + S512x512.size a ≤ S512x1024.size a
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  broadcasts_S1x1x512_S32x64x512 : S1x1x512.Broadcasts S32x64x512
  shapeCasts_S32x64x512_S2048x512 : S32x64x512.ShapeCasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S512x512_S512x512_0_0 : ∀ a, (![0, 0] : Fin 2 → Nat) a + S512x512.size a ≤ S512x512.size a
  broadcasts_S1x512_S2048x512 : S1x512.Broadcasts S2048x512
  shapeCasts_S2048x512_S32x64x512 : S2048x512.ShapeCasts S32x64x512
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  shapeCasts_S32x64x512_S1x32x64x512 : S32x64x512.ShapeCasts S1x32x64x512
  dot_S32x512_S512x512_S32x512_1_1_0_0_n_n_wf : DotDims.WF S32x512 S512x512 S32x512 [1] [1] [0] [0] [] []
  dot_S64x512_S512x512_S64x512_1_1_0_0_n_n_wf : DotDims.WF S64x512 S512x512 S64x512 [1] [1] [0] [0] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S2x256x512.size a
  hwx0_0 : ∀ i : grid0.Coords, EltTy.bits .bf16 = 32 ∨ (Rect.block (s := S2x256x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S2x64x512.size a
  hwx0_1 : ∀ i : grid0.Coords, EltTy.bits .bf16 = 32 ∨ (Rect.block (s := S2x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x64x512.size a ≤ S2x256x64x4096.size a
  hwx0_6 : ∀ i : grid0.Coords, EltTy.bits .f32 = 32 ∨ (Rect.block (s := S2x256x64x4096) S1x32x64x512.size (cc0_transform_6 i) (hinb0_6 i)).WholeWords (EltTy.packing .f32)

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf
def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x32x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S512x512 : Shape := ⟨2, ![512, 512]⟩
abbrev S2x256x1x512 : Shape := ⟨4, ![2, 256, 1, 512]⟩
abbrev S2x1x64x512 : Shape := ⟨4, ![2, 1, 64, 512]⟩
abbrev S2x256x64x512 : Shape := ⟨4, ![2, 256, 64, 512]⟩
abbrev S1x1x1x512 : Shape := ⟨4, ![1, 1, 1, 512]⟩
abbrev S2x256x64x4096 : Shape := ⟨4, ![2, 256, 64, 4096]⟩
abbrev S1x1x1x4096 : Shape := ⟨4, ![1, 1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S4096x512, .f32⟩
  | .hbm, ⟨5, _⟩ => ⟨S4096, .f32⟩
  | .hbm, ⟨6, _⟩ => ⟨S512x512, .f32⟩
  | .hbm, ⟨7, _⟩ => ⟨S512x512, .f32⟩
  | .hbm, ⟨8, _⟩ => ⟨S2x256x512, .f32⟩
  | .hbm, ⟨9, _⟩ => ⟨S2x64x512, .f32⟩
  | .hbm, ⟨10, _⟩ => ⟨S2x256x1x512, .f32⟩
  | .hbm, ⟨11, _⟩ => ⟨S2x1x64x512, .f32⟩
  | .hbm, ⟨12, _⟩ => ⟨S2x256x64x512, .f32⟩
  | .hbm, ⟨13, _⟩ => ⟨S2x256x64x512, .f32⟩
  | .hbm, ⟨14, _⟩ => ⟨S2x256x64x512, .f32⟩
  | .hbm, ⟨15, _⟩ => ⟨S1x1x1x512, .f32⟩
  | .hbm, ⟨16, _⟩ => ⟨S2x256x64x512, .f32⟩
  | .hbm, ⟨17, _⟩ => ⟨S2x256x64x512, .f32⟩
  | .hbm, ⟨18, _⟩ => ⟨S2x256x64x512, .f32⟩
  | .hbm, ⟨19, _⟩ => ⟨S2x256x64x4096, .f32⟩
  | .hbm, ⟨20, _⟩ => ⟨S1x1x1x4096, .f32⟩
  | .hbm, ⟨21, _⟩ => ⟨S2x256x64x4096, .f32⟩
  | .hbm, ⟨22, _⟩ => ⟨S2x256x64x4096, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S2x256x512_S2x256x1x512_0_1_3 : S2x256x512.BroadcastsInDim S2x256x1x512 (![0, 1, 3] : Fin 3 → Fin S2x256x1x512.rank)
  bcast_S2x64x512_S2x1x64x512_0_2_3 : S2x64x512.BroadcastsInDim S2x1x64x512 (![0, 2, 3] : Fin 3 → Fin S2x1x64x512.rank)
  bcast_S2x256x1x512_S2x256x64x512_0_1_2_3 : S2x256x1x512.BroadcastsInDim S2x256x64x512 (![0, 1, 2, 3] : Fin 4 → Fin S2x256x64x512.rank)
  bcast_S2x1x64x512_S2x256x64x512_0_1_2_3 : S2x1x64x512.BroadcastsInDim S2x256x64x512 (![0, 1, 2, 3] : Fin 4 → Fin S2x256x64x512.rank)
  bcast_S512_S1x1x1x512_3 : S512.BroadcastsInDim S1x1x1x512 (![3] : Fin 1 → Fin S1x1x1x512.rank)
  bcast_S1x1x1x512_S2x256x64x512_0_1_2_3 : S1x1x1x512.BroadcastsInDim S2x256x64x512 (![0, 1, 2, 3] : Fin 4 → Fin S2x256x64x512.rank)
  bcast_S4096_S1x1x1x4096_3 : S4096.BroadcastsInDim S1x1x1x4096 (![3] : Fin 1 → Fin S1x1x1x4096.rank)
  bcast_S1x1x1x4096_S2x256x64x4096_0_1_2_3 : S1x1x1x4096.BroadcastsInDim S2x256x64x4096 (![0, 1, 2, 3] : Fin 4 → Fin S2x256x64x4096.rank)
  dot_S2x256x512_S512x512_S2x256x512_2_1_01_0_n_n_wf : DotDims.WF S2x256x512 S512x512 S2x256x512 [2] [1] [0, 1] [0] [] []
  dot_S2x64x512_S512x512_S2x64x512_2_1_01_0_n_n_wf : DotDims.WF S2x64x512 S512x512 S2x64x512 [2] [1] [0, 1] [0] [] []
  dot_S2x256x64x512_S4096x512_S2x256x64x4096_3_1_012_0_n_n_wf : DotDims.WF S2x256x64x512 S4096x512 S2x256x64x4096 [3] [1] [0, 1, 2] [0] [] []

variable [Facts₀]

def dot_S2x256x512_S512x512_S2x256x512_2_1_01_0_n_n : DotDims S2x256x512 S512x512 S2x256x512 where
  lhsContracting := [2]
  rhsContracting := [1]
  lhsNonContracting := [0, 1]
  rhsNonContracting := [0]
  lhsBatch := []
  rhsBatch := []
  wf := dot_S2x256x512_S512x512_S2x256x512_2_1_01_0_n_n_wf
def dot_S2x64x512_S512x512_S2x64x512_2_1_01_0_n_n : DotDims S2x64x512 S512x512 S2x64x512 where
  lhsContracting := [2]
  rhsContracting := [1]
  lhsNonContracting := [0, 1]
  rhsNonContracting := [0]
  lhsBatch := []
  rhsBatch := []
  wf := dot_S2x64x512_S512x512_S2x64x512_2_1_01_0_n_n_wf
def dot_S2x256x64x512_S4096x512_S2x256x64x4096_3_1_012_0_n_n : DotDims S2x256x64x512 S4096x512 S2x256x64x4096 where
  lhsContracting := [3]
  rhsContracting := [1]
  lhsNonContracting := [0, 1, 2]
  rhsNonContracting := [0]
  lhsBatch := []
  rhsBatch := []
  wf := dot_S2x256x64x512_S4096x512_S2x256x64x4096_3_1_012_0_n_n_wf

class Facts : Prop extends Facts₀ where

variable [Facts]
-- ==== Proof.Pieces.lean ====
/-
  What one grid step leaves behind, as values.

  A step with v = 0 first fills the scratch with the hidden block of its (b, t-tile): tanh of the encoder projection of the
  tile's 32 rows plus the decoder projection of the 64 decoder rows plus the bias, laid out as 2048 = 32 · 64 rows of 512
  hidden units. Every step then writes its output block: the scratch times the transposed W2 tile, plus the b2 tile.
  So a step with v = 0 leaves (hidden block, logits of the hidden block it just stored) and a step with v ≠ 0 leaves the
  scratch as it found it and the logits of that.
-/
import proofs.«102611_j14817637171800_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The encoder half of the staged W1 block: its columns 0..511. -/
abbrev encHalf (x2 : Vec F S512x1024 .bf16) : Vec F S512x512 .bf16 :=
  View.ld x2 (Rect.unit (s := S512x1024) ![0, 0] S512x512.size inb_S512x1024_S512x512_0_0)

/-- The decoder half of the staged W1 block: its columns 512..1023. -/
abbrev decHalf (x2 : Vec F S512x1024 .bf16) : Vec F S512x512 .bf16 :=
  View.ld x2 (Rect.unit (s := S512x1024) ![0, 512] S512x512.size inb_S512x1024_S512x512_0_512)

/-- The hidden block of one (b, t-tile), from the encoder tile, the decoder rows, W1 and b1. -/
abbrev hidBlock (x0 : Vec F S1x32x512 .bf16) (x1 : Vec F S1x64x512 .bf16) (x2 : Vec F S512x1024 .bf16) (x3 : Vec F S1x512 .f32) :
    Vec F S2048x512 .bf16 :=
  k0_pay1 (encHalf x2) (decHalf x2) x0 x1 x3

/-- A step with v = 0 leaves the hidden block in the scratch. -/
theorem scratch_A (c : Dev nD) (i : grid0.Coords) (arg3 : Memref sig .tc .vmem S1x32x512 .bf16) (harg3 : arg3.IsWhole) (arg4 : Memref sig .tc .vmem S1x64x512 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x32x64x512 .f32) (harg9 : arg9.IsWhole) (arg10 : Memref sig .tc .vmem S2048x512 .bf16) (harg10 : arg10.IsWhole) (hc0 : cond0_0 i) (x0 : Vec F S1x32x512 .bf16) (x1 : Vec F S1x64x512 .bf16) (x2 : Vec F S512x1024 .bf16) (x3 : Vec F S1x512 .f32) (x4 : Vec F S512x512 .bf16) (x5 : Vec F S1x512 .f32) :
    sout0_A_0 c i arg3 harg3 arg4 harg4 arg5 harg5 arg6 harg6 arg7 harg7 arg8 harg8 arg9 harg9 arg10 harg10 hc0 x0 x1 x2 x3 x4 x5 = hidBlock x0 x1 x2 x3 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz2]
  simp only [View.readAt_eq_ld, harg3.read_unread, harg4.read_unread, harg5.read_unread, harg6.read_unread,
    View.ld_unit_zero (S := S1x32x512) hz3, View.ld_unit_zero (S := S1x64x512) hz3, View.ld_unit_zero (S := S1x512) hz2]

/-- A step with v = 0 leaves, in the output block, the logits of the hidden block it has just stored. -/
theorem out_A (c : Dev nD) (i : grid0.Coords) (arg3 : Memref sig .tc .vmem S1x32x512 .bf16) (harg3 : arg3.IsWhole) (arg4 : Memref sig .tc .vmem S1x64x512 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x32x64x512 .f32) (harg9 : arg9.IsWhole) (arg10 : Memref sig .tc .vmem S2048x512 .bf16) (harg10 : arg10.IsWhole) (hc0 : cond0_0 i) (x0 : Vec F S1x32x512 .bf16) (x1 : Vec F S1x64x512 .bf16) (x2 : Vec F S512x1024 .bf16) (x3 : Vec F S1x512 .f32) (x4 : Vec F S512x512 .bf16) (x5 : Vec F S1x512 .f32) :
    out0_A_6 c i arg3 harg3 arg4 harg4 arg5 harg5 arg6 harg6 arg7 harg7 arg8 harg8 arg9 harg9 arg10 harg10 hc0 x0 x1 x2 x3 x4 x5 = k0_pay2 x4 (hidBlock x0 x1 x2 x3) x5 := by
  unfold out0_A_6
  rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A
  dsimp only
  sl_unfold_words
  rw [View.canon_unit_zero hz4, View.readCov_unit_zero (S := S2048x512) _ hz2]
  simp only [View.readAt_eq_ld, harg3.read_unread, harg4.read_unread, harg5.read_unread, harg6.read_unread,
    harg7.read_unread, harg8.read_unread,
    View.ld_unit_zero (S := S1x32x512) hz3, View.ld_unit_zero (S := S1x64x512) hz3, View.ld_unit_zero (S := S1x512) hz2,
    View.ld_unit_zero (S := S512x512) hz2]

/-- A step with v ≠ 0 leaves, in the output block, the logits of the scratch as the step before left it. -/
theorem out_B (c : Dev nD) (i : grid0.Coords) (arg3 : Memref sig .tc .vmem S1x32x512 .bf16) (harg3 : arg3.IsWhole) (arg4 : Memref sig .tc .vmem S1x64x512 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x32x64x512 .f32) (harg9 : arg9.IsWhole) (arg10 : Memref sig .tc .vmem S2048x512 .bf16) (harg10 : arg10.IsWhole) (hc0 : ¬cond0_0 i) (x0 : Vec F S1x32x512 .bf16) (x1 : Vec F S1x64x512 .bf16) (x2 : Vec F S512x1024 .bf16) (x3 : Vec F S1x512 .f32) (x4 : Vec F S512x512 .bf16) (x5 : Vec F S1x512 .f32) (xs0 : Vec F S2048x512 .bf16) :
    out0_B_6 c i arg3 harg3 arg4 harg4 arg5 harg5 arg6 harg6 arg7 harg7 arg8 harg8 arg9 harg9 arg10 harg10 hc0 x0 x1 x2 x3 x4 x5 xs0 = k0_pay2 x4 xs0 x5 := by
  unfold out0_B_6
  rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B
  dsimp only
  rw [View.canon_unit_zero hz4]
  simp only [View.readAt_eq_ld, harg7.read_unread, harg8.read_unread, harg10.read_unread,
    View.ld_unit_zero (S := S1x512) hz2, View.ld_unit_zero (S := S512x512) hz2, View.ld_unit_zero (S := S2048x512) hz2]

end Cert.KernelIdeal.Pieces

end
-- ==== Proof.Spec.lean ====
/-
  The joint network as one function of its six argument arrays, index by index, on the extended reals.

  With enc : [2, 256, 512], dec : [2, 64, 512], W1 : [512, 1024] (its columns 0..511 the encoder half, 512..1023 the
  decoder half), b1 : [512], W2 : [4096, 512], b2 : [4096]:

    hid  (b, t, u, k) = tanh ((∑_d enc (b, t, d) · W1 (k, d)  +  ∑_d dec (b, u, d) · W1 (k, 512 + d))  +  b1 k)
    logit (b, t, u, v) = (∑_k hid (b, t, u, k) · W2 (v, k))  +  b2 v

  Both programs compute exactly this term, with this grouping of the three summands under the tanh: no law of the
  extended reals is needed to join them, only the re-indexing of tiles, reshapes and broadcasts.
-/
import Idealize.ShloMosaic.PureOps.Ideal
import Idealize.ShloMosaic.Lib.ValueIdx

noncomputable section

namespace Cert.Joint

open Idealize.ShloMosaic Idealize.ShloMosaic.ValueIdx

/-- Column `d` of the encoder half of a row of W1. -/
def colE (d : Fin 512) : Fin 1024 := ⟨d.val, by have := d.isLt; omega⟩
/-- Column `d` of the decoder half of a row of W1. -/
def colD (d : Fin 512) : Fin 1024 := ⟨512 + d.val, by have := d.isLt; omega⟩

/-- The pre-activation of hidden unit `k` at (b, t, u): the encoder projection plus the decoder projection, plus the bias. -/
def pre (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal)
    (b : Fin 2) (t : Fin 256) (u : Fin 64) (k : Fin 512) : EReal :=
  ((∑ d : Fin 512, enc (ix3 b t d) * w1 (ix2 k (colE d))) + (∑ d : Fin 512, dec (ix3 b u d) * w1 (ix2 k (colD d))))
    + b1 (ix1 k)

/-- Hidden unit `k` at (b, t, u). -/
def hid (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal)
    (b : Fin 2) (t : Fin 256) (u : Fin 64) (k : Fin 512) : EReal :=
  Ideal.tanh (pre enc dec w1 b1 b t u k)

/-- The logits, index by index. -/
def logits (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal)
    (w2 : (⟨2, ![4096, 512]⟩ : Shape).Idx → EReal) (b2 : (⟨1, ![4096]⟩ : Shape).Idx → EReal) :
    (⟨4, ![2, 256, 64, 4096]⟩ : Shape).Idx → EReal := fun i =>
  (∑ k : Fin 512, hid enc dec w1 b1 (i 0) (i 1) (i 2) k * w2 (ix2 (i 3) k)) + b2 (ix1 (i 3))

end Cert.Joint

end
-- ==== Proof.Blocks.lean ====
/-
  The input blocks of a grid step, read at an index of the argument arrays.

  The grid is (b, t-tile, v-tile) = (2, 8, 8), the v-tile innermost: step number s has b = s / 64, t-tile (s / 8) % 8 and
  v-tile s % 8. At that step the encoder block is rows 32·tile .. 32·tile + 31 of batch b, the decoder block all 64 rows of
  batch b, the W1 and b1 blocks the whole arrays, the W2 block rows 512·v .. 512·v + 511 and the b2 block the same stretch of
  b2. The arrays the region is launched on are the arguments narrowed to the kernel's input format (the identity on the
  extended reals) or reshaped to one row.
-/
import proofs.«102611_j14817637171800_2_alg».proof.Proof.Gen.KernelIdeal.Frame
import proofs.«102611_j14817637171800_2_alg».proof.Proof.Pieces
import proofs.«102611_j14817637171800_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.KernelIdeal.Pieces Cert.Joint

variable (m : (ℓ : Loc nD τ sig) → Buf (Elt Ideal) ℓ)

theorem lt128 (t : Fin cfg0.N) : t.val < 128 := lt_of_lt_of_eq t.isLt (show cfg0.N = 128 from N_0)

/-- The batch of step `t`. -/
def bOf (t : Fin cfg0.N) : Fin 2 := ⟨t.val / 64, by have := lt128 t; omega⟩
/-- The encoder tile of step `t`. -/
def tOf (t : Fin cfg0.N) : Fin 8 := ⟨(t.val / 8) % 8, by omega⟩
/-- The vocabulary tile of step `t`. -/
def vOf (t : Fin cfg0.N) : Fin 8 := ⟨t.val % 8, by omega⟩

/-- Row `p` of encoder tile `tt`. -/
def encRow (tt : Fin 8) (p : Fin 32) : Fin 256 := ⟨32 * tt.val + p.val, by have := tt.isLt; have := p.isLt; omega⟩
/-- Entry `l` of vocabulary tile `v`. -/
def vocab (v : Fin 8) (l : Fin 512) : Fin 4096 := ⟨512 * v.val + l.val, by have := v.isLt; have := l.isLt; omega⟩

/-- The windows' index maps at every step, decided over the 128 steps. -/
theorem idx_facts : ∀ t : Fin cfg0.N,
    win0_0.index t (0 : Fin 3) = t.val / 64 ∧ win0_0.index t (1 : Fin 3) = (t.val / 8) % 8 ∧ win0_0.index t (2 : Fin 3) = 0
    ∧ win0_1.index t (0 : Fin 3) = t.val / 64 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val % 8 ∧ win0_4.index t (1 : Fin 2) = 0
    ∧ win0_5.index t (0 : Fin 2) = 0 ∧ win0_5.index t (1 : Fin 2) = t.val % 8
    ∧ win0_6.index t (0 : Fin 4) = t.val / 64 ∧ win0_6.index t (1 : Fin 4) = (t.val / 8) % 8
    ∧ win0_6.index t (2 : Fin 4) = 0 ∧ win0_6.index t (3 : Fin 4) = t.val % 8 :=
  (by decide +kernel : ∀ t : Fin grid0.N, _)

/-! ## The arrays the region is launched on -/

theorem V_enc (c : Dev nD) : (V m c main_v0 : S2x256x512.Idx → EReal) = m ((c : Thread nD τ).loc main_arg0) := by
  dsimp only [V, hostOps0]; after_results; rfl
theorem V_dec (c : Dev nD) : (V m c main_v1 : S2x64x512.Idx → EReal) = m ((c : Thread nD τ).loc main_arg1) := by
  dsimp only [V, hostOps0]; after_results; rfl
theorem V_w1 (c : Dev nD) : (V m c main_v2 : S512x1024.Idx → EReal) = m ((c : Thread nD τ).loc main_arg2) := by
  dsimp only [V, hostOps0]; after_results; rfl
theorem V_w2 (c : Dev nD) : (V m c main_v3 : S4096x512.Idx → EReal) = m ((c : Thread nD τ).loc main_arg4) := by
  dsimp only [V, hostOps0]; after_results; rfl
theorem V_b1 (c : Dev nD) : (V m c main_v4 : S1x512.Idx → EReal)
    = shapeCast S1x512 (m ((c : Thread nD τ).loc main_arg3)) shapeCasts_S512_S1x512 := by
  dsimp only [V, hostOps0]; after_results; rfl
theorem V_b2 (c : Dev nD) : (V m c main_v5 : S1x4096.Idx → EReal)
    = shapeCast S1x4096 (m ((c : Thread nD τ).loc main_arg5)) shapeCasts_S4096_S1x4096 := by
  dsimp only [V, hostOps0]; after_results; rfl

/-! ## The blocks at a step -/

/-- The encoder block: row p of the step's tile, of the step's batch. -/
theorem enc_block (c : Dev nD) (t : Fin cfg0.N) (p : Fin 32) (d : Fin 512) :
    (iblk m c 0 t : S1x32x512.Idx → EReal) (ix3 (0 : Fin 1) p d)
      = m ((c : Thread nD τ).loc main_arg0) (ix3 (bOf t) (encRow (tOf t) p) d) := by
  obtain ⟨e0, e1, e2, -⟩ := idx_facts t
  unfold iblk
  rw [View.read_apply]
  show V m c main_v0 (((cfg0.win 0).blk t).view.emb (ix3 (0 : Fin 1) p d)) = _
  rw [V_enc]
  congr 1
  funext a
  apply Fin.ext
  match a with
  | ⟨0, _⟩ => show win0_0.index t (0 : Fin 3) * 1 + 1 * 0 = t.val / 64; omega
  | ⟨1, _⟩ => show win0_0.index t (1 : Fin 3) * 32 + 1 * p.val = 32 * ((t.val / 8) % 8) + p.val; omega
  | ⟨2, _⟩ => show win0_0.index t (2 : Fin 3) * 512 + 1 * d.val = d.val; omega

/-- The decoder block: row q of the step's batch. -/
theorem dec_block (c : Dev nD) (t : Fin cfg0.N) (q : Fin 64) (d : Fin 512) :
    (iblk m c 1 t : S1x64x512.Idx → EReal) (ix3 (0 : Fin 1) q d)
      = m ((c : Thread nD τ).loc main_arg1) (ix3 (bOf t) q d) := by
  obtain ⟨-, -, -, e0, e1, e2, -⟩ := idx_facts t
  unfold iblk
  rw [View.read_apply]
  show V m c main_v1 (((cfg0.win 1).blk t).view.emb (ix3 (0 : Fin 1) q d)) = _
  rw [V_dec]
  congr 1
  funext a
  apply Fin.ext
  match a with
  | ⟨0, _⟩ => show win0_1.index t (0 : Fin 3) * 1 + 1 * 0 = t.val / 64; omega
  | ⟨1, _⟩ => show win0_1.index t (1 : Fin 3) * 64 + 1 * q.val = q.val; omega
  | ⟨2, _⟩ => show win0_1.index t (2 : Fin 3) * 512 + 1 * d.val = d.val; omega

/-- The encoder half of the W1 block: row k, column d of W1. -/
theorem w1_enc_block (c : Dev nD) (t : Fin cfg0.N) (k d : Fin 512) :
    encHalf (iblk m c 2 t : S512x1024.Idx → EReal) (ix2 k d) = m ((c : Thread nD τ).loc main_arg2) (ix2 k (colE d)) := by
  obtain ⟨-, -, -, -, -, -, e0, e1, -⟩ := idx_facts t
  unfold encHalf iblk
  show View.read (Elt Ideal) ((cfg0.win 2).blk t).view (V m c (Pipeline.arrRef spec0 2))
    ((Rect.unit (s := S512x1024) ![0, 0] S512x512.size inb_S512x1024_S512x512_0_0).idx (ix2 k d)) = _
  rw [View.read_apply]
  show V m c main_v2 (((cfg0.win 2).blk t).view.emb _) = _
  rw [V_w1]
  congr 1
  funext a
  apply Fin.ext
  match a with
  | ⟨0, _⟩ => show win0_2.index t (0 : Fin 2) * 512 + 1 * (0 + 1 * k.val) = k.val; omega
  | ⟨1, _⟩ => show win0_2.index t (1 : Fin 2) * 1024 + 1 * (0 + 1 * d.val) = d.val; omega

/-- The decoder half of the W1 block: row k, column 512 + d of W1. -/
theorem w1_dec_block (c : Dev nD) (t : Fin cfg0.N) (k d : Fin 512) :
    decHalf (iblk m c 2 t : S512x1024.Idx → EReal) (ix2 k d) = m ((c : Thread nD τ).loc main_arg2) (ix2 k (colD d)) := by
  obtain ⟨-, -, -, -, -, -, e0, e1, -⟩ := idx_facts t
  unfold decHalf iblk
  show View.read (Elt Ideal) ((cfg0.win 2).blk t).view (V m c (Pipeline.arrRef spec0 2))
    ((Rect.unit (s := S512x1024) ![0, 512] S512x512.size inb_S512x1024_S512x512_0_512).idx (ix2 k d)) = _
  rw [View.read_apply]
  show V m c main_v2 (((cfg0.win 2).blk t).view.emb _) = _
  rw [V_w1]
  congr 1
  funext a
  apply Fin.ext
  match a with
  | ⟨0, _⟩ => show win0_2.index t (0 : Fin 2) * 512 + 1 * (0 + 1 * k.val) = k.val; omega
  | ⟨1, _⟩ => show win0_2.index t (1 : Fin 2) * 1024 + 1 * (512 + 1 * d.val) = 512 + d.val; omega

/-- The b1 block: the whole bias, as one row. -/
theorem b1_block (c : Dev nD) (t : Fin cfg0.N) (k : Fin 512) :
    (iblk m c 3 t : S1x512.Idx → EReal) (ix2 (0 : Fin 1) k) = m ((c : Thread nD τ).loc main_arg3) (ix1 k) := by
  obtain ⟨-, -, -, -, -, -, -, -, e0, e1, -⟩ := idx_facts t
  unfold iblk
  rw [View.read_apply]
  show V m c main_v4 (((cfg0.win 3).blk t).view.emb (ix2 (0 : Fin 1) k)) = _
  rw [V_b1]
  have hi : ((cfg0.win 3).blk t).view.emb (ix2 (0 : Fin 1) k) = (ix2 (0 : Fin 1) k : S1x512.Idx) := by
    funext a
    apply Fin.ext
    match a with
    | ⟨0, _⟩ => show win0_3.index t (0 : Fin 2) * 1 + 1 * 0 = 0; omega
    | ⟨1, _⟩ => show win0_3.index t (1 : Fin 2) * 512 + 1 * k.val = k.val; omega
  rw [hi]
  exact shapeCast_a_1a_apply _ _ (0 : Fin 1) k

/-- The W2 block: row l of the step's vocabulary tile. -/
theorem w2_block (c : Dev nD) (t : Fin cfg0.N) (l k : Fin 512) :
    (iblk m c 4 t : S512x512.Idx → EReal) (ix2 l k) = m ((c : Thread nD τ).loc main_arg4) (ix2 (vocab (vOf t) l) k) := by
  obtain ⟨-, -, -, -, -, -, -, -, -, -, e0, e1, -⟩ := idx_facts t
  unfold iblk
  rw [View.read_apply]
  show V m c main_v3 (((cfg0.win 4).blk t).view.emb (ix2 l k)) = _
  rw [V_w2]
  congr 1
  funext a
  apply Fin.ext
  match a with
  | ⟨0, _⟩ => show win0_4.index t (0 : Fin 2) * 512 + 1 * l.val = 512 * (t.val % 8) + l.val; omega
  | ⟨1, _⟩ => show win0_4.index t (1 : Fin 2) * 512 + 1 * k.val = k.val; omega

/-- The b2 block: entry l of the step's vocabulary tile. -/
theorem b2_block (c : Dev nD) (t : Fin cfg0.N) (l : Fin 512) :
    (iblk m c 5 t : S1x512.Idx → EReal) (ix2 (0 : Fin 1) l) = m ((c : Thread nD τ).loc main_arg5) (ix1 (vocab (vOf t) l)) := by
  obtain ⟨-, -, -, -, -, -, -, -, -, -, -, -, e0, e1, -⟩ := idx_facts t
  unfold iblk
  rw [View.read_apply]
  show V m c main_v5 (((cfg0.win 5).blk t).view.emb (ix2 (0 : Fin 1) l)) = _
  rw [V_b2]
  have hi : ((cfg0.win 5).blk t).view.emb (ix2 (0 : Fin 1) l) = (ix2 (0 : Fin 1) (vocab (vOf t) l) : S1x4096.Idx) := by
    funext a
    apply Fin.ext
    match a with
    | ⟨0, _⟩ => show win0_5.index t (0 : Fin 2) * 1 + 1 * 0 = 0; omega
    | ⟨1, _⟩ => show win0_5.index t (1 : Fin 2) * 512 + 1 * l.val = 512 * (t.val % 8) + l.val; omega
  rw [hi]
  exact shapeCast_a_1a_apply _ _ (0 : Fin 1) (vocab (vOf t) l)

end Cert.KernelIdeal.Blocks

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.Dots.lean ====
/-
  The kernel body's three matrix products read at an index, on the extended reals. Each contracts the LAST axis of both
  operands (a block against the transpose of a weight block) into a zero accumulator, so entry (p, q) is
  ∑_k left (p, k) · right (q, k).
-/
import proofs.«102611_j14817637171800_2_alg».proof.KernelIdeal
import proofs.«102611_j14817637171800_2_alg».proof.Proof.Gen.KernelIdeal
import proofs.«102611_j14817637171800_2_alg».proof.Proof.LibDot
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

theorem encProj_apply_lhs0 (j : S32x512.Idx) (kk : dot_S32x512_S512x512_S32x512_1_1_0_0_n_n.contr.Idx) : (dot_S32x512_S512x512_S32x512_1_1_0_0_n_n.lhsIdx j kk 0).val = (j 0).val := by
  unfold DotDims.lhsIdx
  rw [dif_neg (show ¬(0 : Fin S32x512.rank) ∈ dot_S32x512_S512x512_S32x512_1_1_0_0_n_n.lhsBatch by decide),
    dif_pos (show (0 : Fin S32x512.rank) ∈ dot_S32x512_S512x512_S32x512_1_1_0_0_n_n.lhsNonContracting by decide)]
  rfl
theorem encProj_apply_rhs0 (j : S32x512.Idx) (kk : dot_S32x512_S512x512_S32x512_1_1_0_0_n_n.contr.Idx) : (dot_S32x512_S512x512_S32x512_1_1_0_0_n_n.rhsIdx j kk 0).val = (j 1).val := by
  unfold DotDims.rhsIdx
  rw [dif_neg (show ¬(0 : Fin S512x512.rank) ∈ dot_S32x512_S512x512_S32x512_1_1_0_0_n_n.rhsBatch by decide),
    dif_pos (show (0 : Fin S512x512.rank) ∈ dot_S32x512_S512x512_S32x512_1_1_0_0_n_n.rhsNonContracting by decide)]
  rfl

/-- The product of an [32, 512] block with the transpose of a [512, 512] block, into a zero accumulator: entry (p, q) is the
    sum over the shared axis of the left row p against the right row q. -/
theorem encProj_apply (x : FVec Ideal S32x512 .bf16) (y : FVec Ideal S512x512 .bf16) (p : Fin 32) (q : Fin 512) :
    matmul dot_S32x512_S512x512_S32x512_1_1_0_0_n_n none x y (constant (F := Ideal) S32x512 .f32 0x00000000#32) (ix2 p q)
      = ∑ k : Fin 512, x (ix2 p k) * y (ix2 q k) := by
  simp only [matmul]
  rw [Ideal.matmul_constant_zero_apply]
  refine Cert.LibDot.sum_contr_eq dot_S32x512_S512x512_S32x512_1_1_0_0_n_n 512 rfl rfl x y (ix2 p q) (fun k => ix2 p k) (fun k => ix2 q k) (fun k => ?_) (fun k => ?_)
  · have hk := ValueIdx.contrEquiv1_symm_val dot_S32x512_S512x512_S32x512_1_1_0_0_n_n 512 rfl rfl k
    exact funext fun a => Fin.ext (by
      match a with
      | ⟨0, _⟩ => exact encProj_apply_lhs0 _ _
      | ⟨1, _⟩ => exact (dot_S32x512_S512x512_S32x512_1_1_0_0_n_n.lhsIdx_val_of_single rfl _ _).trans hk)
  · have hk := ValueIdx.contrEquiv1_symm_val dot_S32x512_S512x512_S32x512_1_1_0_0_n_n 512 rfl rfl k
    exact funext fun a => Fin.ext (by
      match a with
      | ⟨0, _⟩ => exact encProj_apply_rhs0 _ _
      | ⟨1, _⟩ => exact (dot_S32x512_S512x512_S32x512_1_1_0_0_n_n.rhsIdx_val_of_single rfl _ _).trans hk)

theorem decProj_apply_lhs0 (j : S64x512.Idx) (kk : dot_S64x512_S512x512_S64x512_1_1_0_0_n_n.contr.Idx) : (dot_S64x512_S512x512_S64x512_1_1_0_0_n_n.lhsIdx j kk 0).val = (j 0).val := by
  unfold DotDims.lhsIdx
  rw [dif_neg (show ¬(0 : Fin S64x512.rank) ∈ dot_S64x512_S512x512_S64x512_1_1_0_0_n_n.lhsBatch by decide),
    dif_pos (show (0 : Fin S64x512.rank) ∈ dot_S64x512_S512x512_S64x512_1_1_0_0_n_n.lhsNonContracting by decide)]
  rfl
theorem decProj_apply_rhs0 (j : S64x512.Idx) (kk : dot_S64x512_S512x512_S64x512_1_1_0_0_n_n.contr.Idx) : (dot_S64x512_S512x512_S64x512_1_1_0_0_n_n.rhsIdx j kk 0).val = (j 1).val := by
  unfold DotDims.rhsIdx
  rw [dif_neg (show ¬(0 : Fin S512x512.rank) ∈ dot_S64x512_S512x512_S64x512_1_1_0_0_n_n.rhsBatch by decide),
    dif_pos (show (0 : Fin S512x512.rank) ∈ dot_S64x512_S512x512_S64x512_1_1_0_0_n_n.rhsNonContracting by decide)]
  rfl

/-- The product of an [64, 512] block with the transpose of a [512, 512] block, into a zero accumulator: entry (p, q) is the
    sum over the shared axis of the left row p against the right row q. -/
theorem decProj_apply (x : FVec Ideal S64x512 .bf16) (y : FVec Ideal S512x512 .bf16) (p : Fin 64) (q : Fin 512) :
    matmul dot_S64x512_S512x512_S64x512_1_1_0_0_n_n none x y (constant (F := Ideal) S64x512 .f32 0x00000000#32) (ix2 p q)
      = ∑ k : Fin 512, x (ix2 p k) * y (ix2 q k) := by
  simp only [matmul]
  rw [Ideal.matmul_constant_zero_apply]
  refine Cert.LibDot.sum_contr_eq dot_S64x512_S512x512_S64x512_1_1_0_0_n_n 512 rfl rfl x y (ix2 p q) (fun k => ix2 p k) (fun k => ix2 q k) (fun k => ?_) (fun k => ?_)
  · have hk := ValueIdx.contrEquiv1_symm_val dot_S64x512_S512x512_S64x512_1_1_0_0_n_n 512 rfl rfl k
    exact funext fun a => Fin.ext (by
      match a with
      | ⟨0, _⟩ => exact decProj_apply_lhs0 _ _
      | ⟨1, _⟩ => exact (dot_S64x512_S512x512_S64x512_1_1_0_0_n_n.lhsIdx_val_of_single rfl _ _).trans hk)
  · have hk := ValueIdx.contrEquiv1_symm_val dot_S64x512_S512x512_S64x512_1_1_0_0_n_n 512 rfl rfl k
    exact funext fun a => Fin.ext (by
      match a with
      | ⟨0, _⟩ => exact decProj_apply_rhs0 _ _
      | ⟨1, _⟩ => exact (dot_S64x512_S512x512_S64x512_1_1_0_0_n_n.rhsIdx_val_of_single rfl _ _).trans hk)

theorem logit_apply_lhs0 (j : S2048x512.Idx) (kk : dot_S2048x512_S512x512_S2048x512_1_1_0_0_n_n.contr.Idx) : (dot_S2048x512_S512x512_S2048x512_1_1_0_0_n_n.lhsIdx j kk 0).val = (j 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl
theorem logit_apply_rhs0 (j : S2048x512.Idx) (kk : dot_S2048x512_S512x512_S2048x512_1_1_0_0_n_n.contr.Idx) : (dot_S2048x512_S512x512_S2048x512_1_1_0_0_n_n.rhsIdx j kk 0).val = (j 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl

/-- The product of an [2048, 512] block with the transpose of a [512, 512] block, into a zero accumulator: entry (p, q) is the
    sum over the shared axis of the left row p against the right row q. -/
theorem logit_apply (x : FVec Ideal S2048x512 .bf16) (y : FVec Ideal S512x512 .bf16) (p : Fin 2048) (q : Fin 512) :
    matmul dot_S2048x512_S512x512_S2048x512_1_1_0_0_n_n none x y (constant (F := Ideal) S2048x512 .f32 0x00000000#32) (ix2 p q)
      = ∑ k : Fin 512, x (ix2 p k) * y (ix2 q k) := by
  simp only [matmul]
  rw [Ideal.matmul_constant_zero_apply]
  refine Cert.LibDot.sum_contr_eq dot_S2048x512_S512x512_S2048x512_1_1_0_0_n_n 512 rfl rfl x y (ix2 p q) (fun k => ix2 p k) (fun k => ix2 q k) (fun k => ?_) (fun k => ?_)
  · have hk := ValueIdx.contrEquiv1_symm_val dot_S2048x512_S512x512_S2048x512_1_1_0_0_n_n 512 rfl rfl k
    exact funext fun a => Fin.ext (by
      match a with
      | ⟨0, _⟩ => exact logit_apply_lhs0 _ _
      | ⟨1, _⟩ => exact (dot_S2048x512_S512x512_S2048x512_1_1_0_0_n_n.lhsIdx_val_of_single rfl _ _).trans hk)
  · have hk := ValueIdx.contrEquiv1_symm_val dot_S2048x512_S512x512_S2048x512_1_1_0_0_n_n 512 rfl rfl k
    exact funext fun a => Fin.ext (by
      match a with
      | ⟨0, _⟩ => exact logit_apply_rhs0 _ _
      | ⟨1, _⟩ => exact (dot_S2048x512_S512x512_S2048x512_1_1_0_0_n_n.rhsIdx_val_of_single rfl _ _).trans hk)

end Cert.KernelIdeal.Dots

end
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.Payloads.lean ====
/-
  The two stored values of a grid step, read at an index on the extended reals.

  Row n = p · 64 + q of the hidden block belongs to encoder row p of the tile and decoder row q; its entry at hidden unit k is
      tanh ((∑_d enc (0, p, d) · We (k, d) + ∑_d dec (0, q, d) · Wd (k, d)) + b1 (0, k)).
  The output block at (0, p, q, v) is the same row n of the scratch against row v of the W2 tile, plus the b2 tile at v:
      (∑_k scratch (n, k) · W2 (v, k)) + b2 (0, v).
  The narrowing of the hidden block to the scratch's format is the identity on the extended reals.
-/
import proofs.«102611_j14817637171800_2_alg».proof.Proof.Gen.KernelIdeal.Skeleton
import proofs.«102611_j14817637171800_2_alg».proof.Proof.Dots
import proofs.«102611_j14817637171800_2_alg».proof.Proof.LibLayoutB

noncomputable section

namespace Cert.KernelIdeal.Payloads

open Cert.KernelIdeal Cert.KernelIdeal.Gen Idealize.ShloMosaic Idealize.ShloMosaic.ValueIdx
open Cert.LibLayoutB Cert.KernelIdeal.Dots

/-- The hidden block at row n = p · 64 + q and hidden unit k. -/
theorem hidden_apply (we wd : Vec Ideal S512x512 .bf16) (x0 : Vec Ideal S1x32x512 .bf16) (x1 : Vec Ideal S1x64x512 .bf16)
    (x3 : Vec Ideal S1x512 .f32) (p : Fin 32) (q : Fin 64) (k : Fin 512) (n : Fin 2048) (hn : n.val = p.val * 64 + q.val) :
    k0_pay1 (F := Ideal) we wd x0 x1 x3 (ix2 n k)
      = Ideal.tanh (((∑ d : Fin 512, x0 (ix3 (0 : Fin 1) p d) * we (ix2 k d))
          + (∑ d : Fin 512, x1 (ix3 (0 : Fin 1) q d) * wd (ix2 k d))) + x3 (ix2 (0 : Fin 1) k)) := by
  unfold k0_pay1
  simp only [shapeCast_self]
  rw [truncf_apply, shapeCast_abc_mc_apply _ _ p q k n hn]
  show Ideal.tanh _ = Ideal.tanh _
  congr 1
  rw [addf_apply, addf_apply, broadcastTo_a1c_abc_apply, shapeCast_ab_a1b_apply, encProj_apply,
    broadcastTo_1bc_abc_apply, shapeCast_ab_1ab_apply, decProj_apply, broadcastTo_11c_abc_apply, shapeCast_ab_1ab_apply]
  simp only [shapeCast_1ab_ab_apply]

/-- The output block at (0, p, q, v), over a scratch `h`: row n = p · 64 + q of `h` against row v of the W2 tile, plus b2. -/
theorem logits_apply (w2 : Vec Ideal S512x512 .bf16) (h : Vec Ideal S2048x512 .bf16) (b2 : Vec Ideal S1x512 .f32)
    (p : Fin 32) (q : Fin 64) (v : Fin 512) (n : Fin 2048) (hn : n.val = p.val * 64 + q.val) :
    k0_pay2 (F := Ideal) w2 h b2 (ix4 (0 : Fin 1) p q v)
      = (∑ k : Fin 512, h (ix2 n k) * w2 (ix2 v k)) + b2 (ix2 (0 : Fin 1) v) := by
  unfold k0_pay2
  simp only [shapeCast_self]
  rw [shapeCast_abc_1abc_apply, shapeCast_mc_abc_apply _ _ p q v n hn, addf_apply, logit_apply, broadcastTo_1b_ab_apply]

end Cert.KernelIdeal.Payloads

end
-- ==== Proof.Tiles.lean ====
/-
  The hidden tile and the output block as functions of the argument arrays.

  The hidden tile of (b, t-tile) has 2048 = 32 · 64 rows: row n = p · 64 + q pairs encoder row p of the tile with decoder row
  q, and holds the 512 hidden units of that pair. A step's stored hidden block is this tile when its input blocks are the tile's
  rows of the arrays, and its output block over the tile is the matching block of `logits`.
-/
import proofs.«102611_j14817637171800_2_alg».proof.Proof.Blocks
import proofs.«102611_j14817637171800_2_alg».proof.Proof.Payloads
import proofs.«102611_j14817637171800_2_alg».proof.Proof.Pieces
import proofs.«102611_j14817637171800_2_alg».proof.Proof.Spec

noncomputable section

namespace Cert.KernelIdeal.Tiles

open Cert.KernelIdeal Cert.KernelIdeal.Gen Idealize.ShloMosaic Idealize.ShloMosaic.TcCoe Idealize.SL.Sem
open Idealize.ShloMosaic.ValueIdx Cert.KernelIdeal.Pieces Cert.KernelIdeal.Payloads Cert.KernelIdeal.Blocks Cert.Joint
open Idealize.ShloMosaic.Pipeline (Dat)

/-! ## The hidden tile, over any arrays -/

/-- The encoder row within its tile of row `n` of a hidden tile, and the decoder row. -/
def rowP (n : Fin 2048) : Fin 32 := ⟨n.val / 64, by have := n.isLt; omega⟩
def rowQ (n : Fin 2048) : Fin 64 := ⟨n.val % 64, by omega⟩

theorem rowP_mk (p : Fin 32) (q : Fin 64) (h : p.val * 64 + q.val < 2048) : rowP ⟨p.val * 64 + q.val, h⟩ = p :=
  Fin.ext (by show (p.val * 64 + q.val) / 64 = p.val; have := q.isLt; omega)
theorem rowQ_mk (p : Fin 32) (q : Fin 64) (h : p.val * 64 + q.val < 2048) : rowQ ⟨p.val * 64 + q.val, h⟩ = q :=
  Fin.ext (by show (p.val * 64 + q.val) % 64 = q.val; have := q.isLt; omega)

/-- The hidden tile of batch `b` and encoder tile `tt`: row n = p · 64 + q is encoder row p of the tile with decoder row q. -/
def hidTile (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal) (b : Fin 2) (tt : Fin 8) :
    (⟨2, ![2048, 512]⟩ : Shape).Idx → EReal := fun j =>
  hid enc dec w1 b1 b (encRow tt (rowP (j 0))) (rowQ (j 0)) (j 1)

/-- A step's stored hidden block is the hidden tile, when its input blocks are the tile's rows of the arrays. -/
theorem hidBlock_eq (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal) (b : Fin 2) (tt : Fin 8)
    (x0 : Vec Ideal S1x32x512 .bf16) (x1 : Vec Ideal S1x64x512 .bf16) (x2 : Vec Ideal S512x1024 .bf16) (x3 : Vec Ideal S1x512 .f32)
    (h0 : ∀ (p : Fin 32) (d : Fin 512), x0 (ix3 (0 : Fin 1) p d) = enc (ix3 b (encRow tt p) d))
    (h1 : ∀ (q : Fin 64) (d : Fin 512), x1 (ix3 (0 : Fin 1) q d) = dec (ix3 b q d))
    (h2e : ∀ k d : Fin 512, encHalf x2 (ix2 k d) = w1 (ix2 k (colE d)))
    (h2d : ∀ k d : Fin 512, decHalf x2 (ix2 k d) = w1 (ix2 k (colD d)))
    (h3 : ∀ k : Fin 512, x3 (ix2 (0 : Fin 1) k) = b1 (ix1 k)) :
    hidBlock x0 x1 x2 x3 = hidTile enc dec w1 b1 b tt := by
  funext j
  obtain ⟨n, k, rfl⟩ : ∃ (n : Fin 2048) (k : Fin 512), j = ix2 n k := ⟨j 0, j 1, eq_ix2 j⟩
  refine (hidden_apply (encHalf x2) (decHalf x2) x0 x1 x3 (rowP n) (rowQ n) k n
    (by show n.val = n.val / 64 * 64 + n.val % 64; omega)).trans ?_
  have s1 : (∑ d : Fin 512, x0 (ix3 (0 : Fin 1) (rowP n) d) * encHalf x2 (ix2 k d))
      = ∑ d : Fin 512, enc (ix3 b (encRow tt (rowP n)) d) * w1 (ix2 k (colE d)) :=
    Finset.sum_congr rfl fun d _ => by rw [h0 (rowP n) d, h2e k d]
  have s2 : (∑ d : Fin 512, x1 (ix3 (0 : Fin 1) (rowQ n) d) * decHalf x2 (ix2 k d))
      = ∑ d : Fin 512, dec (ix3 b (rowQ n) d) * w1 (ix2 k (colD d)) :=
    Finset.sum_congr rfl fun d _ => by rw [h1 (rowQ n) d, h2d k d]
  rw [s1, s2, h3 k]
  rfl

/-- A step's output block at (0, p, q, l), over the hidden tile in the scratch, is the logit at the tile's row, the decoder row
    and the vocabulary entry the blocks name. -/
theorem outBlock_apply (enc : (⟨3, ![2, 256, 512]⟩ : Shape).Idx → EReal) (dec : (⟨3, ![2, 64, 512]⟩ : Shape).Idx → EReal)
    (w1 : (⟨2, ![512, 1024]⟩ : Shape).Idx → EReal) (b1 : (⟨1, ![512]⟩ : Shape).Idx → EReal)
    (w2 : (⟨2, ![4096, 512]⟩ : Shape).Idx → EReal) (b2 : (⟨1, ![4096]⟩ : Shape).Idx → EReal) (b : Fin 2) (tt v : Fin 8)
    (x4 : Vec Ideal S512x512 .bf16) (x5 : Vec Ideal S1x512 .f32)
    (h4 : ∀ l k : Fin 512, x4 (ix2 l k) = w2 (ix2 (vocab v l) k))
    (h5 : ∀ l : Fin 512, x5 (ix2 (0 : Fin 1) l) = b2 (ix1 (vocab v l)))
    (p : Fin 32) (q : Fin 64) (l : Fin 512) :
    k0_pay2 (F := Ideal) x4 (hidTile enc dec w1 b1 b tt) x5 (ix4 (0 : Fin 1) p q l)
      = logits enc dec w1 b1 w2 b2 (ix4 b (encRow tt p) q (vocab v l)) := by
  have hlt : p.val * 64 + q.val < 2048 := by have := p.isLt; have := q.isLt; omega
  refine (logits_apply x4 (hidTile enc dec w1 b1 b tt) x5 p q l ⟨p.val * 64 + q.val, hlt⟩ rfl).trans ?_
  have s4 : (∑ k : Fin 512, hidTile enc dec w1 b1 b tt (ix2 ⟨p.val * 64 + q.val, hlt⟩ k) * x4 (ix2 l k))
      = ∑ k : Fin 512, hidTile enc dec w1 b1 b tt (ix2 ⟨p.val * 64 + q.val, hlt⟩ k) * w2 (ix2 (vocab v l) k) :=
    Finset.sum_congr rfl fun k _ => by rw [h4 l k]
  rw [s4, h5 l]
  show (∑ k : Fin 512, hid enc dec w1 b1 b (encRow tt (rowP ⟨p.val * 64 + q.val, hlt⟩)) (rowQ ⟨p.val * 64 + q.val, hlt⟩) k
      * w2 (ix2 (vocab v l) k)) + b2 (ix1 (vocab v l))
    = (∑ k : Fin 512, hid enc dec w1 b1 b (encRow tt p) q k * w2 (ix2 (vocab v l) k)) + b2 (ix1 (vocab v l))
  rw [rowP_mk, rowQ_mk]

/-! ## At the steps of the grid -/

variable (m : (ℓ : Loc nD τ sig) → Buf (Elt Ideal) ℓ)

/-- The six argument arrays of core `c`. -/
abbrev encA (c : Dev nD) : (⟨3, ![2, 256, 512]⟩ : Shape).Idx → EReal := m ((c : Thread nD τ).loc main_arg0)
abbrev decA (c : Dev nD) : (⟨3, ![2, 64, 512]⟩ : Shape).Idx → EReal := m ((c : Thread nD τ).loc main_arg1)
abbrev w1A (c : Dev nD) : (⟨2, ![512, 1024]⟩ : Shape).Idx → EReal := m ((c : Thread nD τ).loc main_arg2)
abbrev b1A (c : Dev nD) : (⟨1, ![512]⟩ : Shape).Idx → EReal := m ((c : Thread nD τ).loc main_arg3)
abbrev w2A (c : Dev nD) : (⟨2, ![4096, 512]⟩ : Shape).Idx → EReal := m ((c : Thread nD τ).loc main_arg4)
abbrev b2A (c : Dev nD) : (⟨1, ![4096]⟩ : Shape).Idx → EReal := m ((c : Thread nD τ).loc main_arg5)

/-- The hidden block a step computes from its input blocks is the hidden tile of the step's batch and encoder tile. -/
theorem hidBlock_at (c : Dev nD) (t : Fin cfg0.N) :
    hidBlock (iblk m c 0 t) (iblk m c 1 t) (iblk m c 2 t) (iblk m c 3 t) = hidTile (encA m c) (decA m c) (w1A m c) (b1A m c) (bOf t) (tOf t) :=
  hidBlock_eq (encA m c) (decA m c) (w1A m c) (b1A m c) (bOf t) (tOf t) (iblk m c 0 t) (iblk m c 1 t) (iblk m c 2 t) (iblk m c 3 t)
    (enc_block m c t) (dec_block m c t) (w1_enc_block m c t) (w1_dec_block m c t) (b1_block m c t)

end Cert.KernelIdeal.Tiles

end
-- ==== Proof.Steps.lean ====
/-
  The grid steps, one after the other.

  The scratch is written at the steps with v-tile 0 and only read at the others, and the eight steps of one (b, t-tile) are
  consecutive: so after EVERY step the scratch holds the hidden tile of that step's (b, t-tile) — at a step with v-tile 0
  because it has just been stored, at any other because the step before had the same (b, t-tile) and left it there. Hence
  every step writes back the logits of its own (b, t-tile, v-tile): the block of `logits` its output window names.
-/
import proofs.«102611_j14817637171800_2_alg».proof.Proof.Gen.KernelIdeal.Value
import proofs.«102611_j14817637171800_2_alg».proof.Proof.Tiles

noncomputable section

namespace Cert.KernelIdeal.Steps

open Cert.KernelIdeal Cert.KernelIdeal.Gen Idealize.ShloMosaic Idealize.ShloMosaic.TcCoe Idealize.SL.Sem
open Idealize.ShloMosaic.ValueIdx Cert.KernelIdeal.Pieces Cert.KernelIdeal.Payloads Cert.KernelIdeal.Blocks Cert.Joint
open Cert.KernelIdeal.Tiles
open Idealize.ShloMosaic.Pipeline (Dat)

variable (m : (ℓ : Loc nD τ sig) → Buf (Elt Ideal) ℓ)

/-- A step with v-tile 0 leaves its own hidden tile in the scratch. -/
theorem scratch_first (c : Dev nD) (t : Fin cfg0.N) (h0 : t.val % 8 = 0) :
    (outsAt0 m c t.val t.isLt).2 = hidTile (encA m c) (decA m c) (w1A m c) (b1A m c) (bOf t) (tOf t) := by
  rw [outsAt0_A m c t h0]
  dsimp only
  rw [scratch_A]
  exact hidBlock_at m c t

/-- A step with another v-tile leaves the scratch as the step before left it. -/
theorem scratch_later (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

/-- After every step the scratch holds the hidden tile of that step's batch and encoder tile. -/
theorem scratch_at (c : Dev nD) : ∀ (n : ℕ) (hn : n < cfg0.N),
    (outsAt0 m c n hn).2 = hidTile (encA m c) (decA m c) (w1A m c) (b1A m c) (bOf ⟨n, hn⟩) (tOf ⟨n, hn⟩)
  | 0, hn => scratch_first m c ⟨0, hn⟩ rfl
  | n + 1, hn => by
    by_cases h0 : (n + 1) % 8 = 0
    · exact scratch_first m c ⟨n + 1, hn⟩ h0
    · have hn' : n < cfg0.N := Nat.lt_of_succ_lt hn
      have hb : bOf ⟨n, hn'⟩ = bOf ⟨n + 1, hn⟩ := Fin.ext (by show n / 64 = (n + 1) / 64; omega)
      have ht : tOf ⟨n, hn'⟩ = tOf ⟨n + 1, hn⟩ := Fin.ext (by show (n / 8) % 8 = ((n + 1) / 8) % 8; omega)
      refine (scratch_later m c ⟨n + 1, hn⟩ h0).trans ?_
      show (outsAt0 m c n hn').2 = _
      rw [scratch_at c n hn', hb, ht]

/-- So every step leaves, in its output block, the logits over the hidden tile of its own batch and encoder tile. -/
theorem out_at (c : Dev nD) (t : Fin cfg0.N) :
    (outsAt0 m c t.val t.isLt).1 = k0_pay2 (iblk m c 4 t) (hidTile (encA m c) (decA m c) (w1A m c) (b1A m c) (bOf t) (tOf t)) (iblk m c 5 t) := by
  by_cases h0 : t.val % 8 = 0
  · rw [outsAt0_A m c t h0]
    dsimp only
    rw [out_A, hidBlock_at m c t]
  · have hs : (outsAt0 m c (t.val - 1) (Nat.lt_of_le_of_lt (Nat.sub_le _ _) t.isLt)).2
        = hidTile (encA m c) (decA m c) (w1A m c) (b1A m c) (bOf t) (tOf t) :=
      (scratch_later m c t h0).symm.trans (scratch_at m c t.val t.isLt)
    rw [outsAt0_B m c t h0]
    dsimp only
    rw [out_B, hs]

/-- What a step writes back is the block of `logits` its output window names. -/
theorem flushed_eq (c : Dev nD) (t : Fin cfg0.N) :
    (dats m 0 c).flushed 6 t = ((cfg0.win 6).blk t).view.read (Elt Ideal) (logits (encA m c) (decA m c) (w1A m c) (b1A m c) (w2A m c) (b2A m c)) := by
  rw [Cert.KernelIdeal.Value.flushed6, out_at m c t]
  have key : ∀ j : S1x32x64x512.Idx,
      k0_pay2 (F := Ideal) (iblk m c 4 t) (hidTile (encA m c) (decA m c) (w1A m c) (b1A m c) (bOf t) (tOf t)) (iblk m c 5 t) j
        = logits (encA m c) (decA m c) (w1A m c) (b1A m c) (w2A m c) (b2A m c) (((cfg0.win 6).blk t).view.emb j) := by
    intro j
    obtain ⟨u, p, q, l, rfl⟩ : ∃ (u : Fin 1) (p : Fin 32) (q : Fin 64) (l : Fin 512), j = ix4 u p q l :=
      ⟨j 0, j 1, j 2, j 3, eq_ix4 j⟩
    obtain rfl : u = 0 := Subsingleton.elim _ _
    obtain ⟨-, -, -, -, -, -, -, -, -, -, -, -, -, -, e0, e1, e2, e3⟩ := idx_facts t
    have hi : ((cfg0.win 6).blk t).view.emb (ix4 (0 : Fin 1) p q l)
        = (ix4 (bOf t) (encRow (tOf t) p) q (vocab (vOf t) l) : S2x256x64x4096.Idx) := by
      funext a
      apply Fin.ext
      match a with
      | ⟨0, _⟩ => show win0_6.index t (0 : Fin 4) * 1 + 1 * 0 = t.val / 64; omega
      | ⟨1, _⟩ => show win0_6.index t (1 : Fin 4) * 32 + 1 * p.val = 32 * ((t.val / 8) % 8) + p.val; omega
      | ⟨2, _⟩ => show win0_6.index t (2 : Fin 4) * 64 + 1 * q.val = q.val; omega
      | ⟨3, _⟩ => show win0_6.index t (3 : Fin 4) * 512 + 1 * l.val = 512 * (t.val % 8) + l.val; omega
    rw [hi]
    exact outBlock_apply (encA m c) (decA m c) (w1A m c) (b1A m c) (w2A m c) (b2A m c) (bOf t) (tOf t) (vOf t) (iblk m c 4 t) (iblk m c 5 t)
      (w2_block m c t) (b2_block m c t) p q l
  funext j
  rw [View.read_apply]
  exact key j

end Cert.KernelIdeal.Steps

end
-- ==== Proof.Final.lean ====
/-
  The result array after the run.

  Every step writes its output block back, and the 128 blocks tile the [2, 256, 64, 4096] result: the index (b, t, u, v) lies in
  the block of the step with batch b, encoder tile t / 32 and vocabulary tile v / 512, that is step number
  b · 64 + (t / 32) · 8 + v / 512. Each block written is the block of `logits` at its place, so the array ends at `logits`.
-/
import proofs.«102611_j14817637171800_2_alg».proof.Proof.Steps

noncomputable section

namespace Cert.KernelIdeal.Final

open Cert.KernelIdeal Cert.KernelIdeal.Gen Idealize.ShloMosaic Idealize.ShloMosaic.TcCoe Idealize.SL.Sem
open Idealize.ShloMosaic.ValueIdx Cert.KernelIdeal.Blocks Cert.KernelIdeal.Tiles Cert.KernelIdeal.Steps Cert.Joint
open Idealize.ShloMosaic.Pipeline (Dat)

variable (m : (ℓ : Loc nD τ sig) → Buf (Elt Ideal) ℓ) (ρ : Dev nD → PrngReg)

/-- An index of the result is in a step's block iff each coordinate is in the block's range on its axis. -/
theorem mem_block (t : Fin cfg0.N) (i : S2x256x64x4096.Idx) :
    i ∈ ((cfg0.win 6).blk t).view.set ↔ ∀ a : Fin 4, win0_6.index t a * S1x32x64x512.size a ≤ (i a).val
      ∧ (i a).val < win0_6.index t a * S1x32x64x512.size a + S1x32x64x512.size a := by
  show i ∈ ((View.whole main_v6).slice (win0_6.rect t)).set ↔ _
  rw [View.set_slice_whole, Rect.mem_set_unit]
  exact Iff.rfl

/-- The step whose block holds the index (b, t, u, v). -/
def stepOf (i : S2x256x64x4096.Idx) : Fin cfg0.N :=
  ⟨(i 0).val * 64 + (i 1).val / 32 * 8 + (i 3).val / 512, by
    have h0 : (i 0).val < 2 := (i 0).isLt
    have h1 : (i 1).val < 256 := (i 1).isLt
    have h3 : (i 3).val < 4096 := (i 3).isLt
    rw [show cfg0.N = 128 from N_0]; omega⟩

/-- Every index of the result is in the block of a step that writes back. -/
theorem cover (i : S2x256x64x4096.Idx) :
    ∃ t : Fin cfg0.N, (cfg0.win 6).flush t = true ∧ i ∈ ((cfg0.win 6).blk t).view.set := by
  have h0 : (i 0).val < 2 := (i 0).isLt
  have h1 : (i 1).val < 256 := (i 1).isLt
  have h2 : (i 2).val < 64 := (i 2).isLt
  have h3 : (i 3).val < 4096 := (i 3).isLt
  have hv : (stepOf i).val = (i 0).val * 64 + (i 1).val / 32 * 8 + (i 3).val / 512 := rfl
  obtain ⟨-, -, -, -, -, -, -, -, -, -, -, -, -, -, e0, e1, e2, e3⟩ := idx_facts (stepOf i)
  refine ⟨stepOf i, flush0_6 _, ?_⟩
  rw [mem_block]
  intro a
  match a with
  | ⟨0, _⟩ =>
    show win0_6.index (stepOf i) (0 : Fin 4) * 1 ≤ (i 0).val ∧ (i 0).val < win0_6.index (stepOf i) (0 : Fin 4) * 1 + 1
    omega
  | ⟨1, _⟩ =>
    show win0_6.index (stepOf i) (1 : Fin 4) * 32 ≤ (i 1).val ∧ (i 1).val < win0_6.index (stepOf i) (1 : Fin 4) * 32 + 32
    omega
  | ⟨2, _⟩ =>
    show win0_6.index (stepOf i) (2 : Fin 4) * 64 ≤ (i 2).val ∧ (i 2).val < win0_6.index (stepOf i) (2 : Fin 4) * 64 + 64
    omega
  | ⟨3, _⟩ =>
    show win0_6.index (stepOf i) (3 : Fin 4) * 512 ≤ (i 3).val ∧ (i 3).val < win0_6.index (stepOf i) (3 : Fin 4) * 512 + 512
    omega

/-- The result array after the run is `logits` of the argument arrays. -/
theorem final (c : Dev nD) : (dats m 0 c).arrAt 6 cfg0.N = logits (encA m c) (decA m c) (w1A m c) (b1A m c) (w2A m c) (b2A m c) :=
  (dats m 0 c).arrAt_eq_of_cover 6 (logits (encA m c) (decA m c) (w1A m c) (b1A m c) (w2A m c) (b2A m c)) (fun t _ => flushed_eq m c t) cover

/-- The kernel's run, read: the result at `logits` of the arguments, the arguments unchanged. -/
theorem run : θ_run defs (onTc (τ := τ) (main (F := Ideal))) ⟨m, fun _ => 0, ρ⟩ fun r => ∀ c : Dev nD,
      r.2.mem ((c : Thread nD τ).loc main_v6) = logits (encA m c) (decA m c) (w1A m c) (b1A m c) (w2A m c) (b2A m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Final

end
-- ==== Proof.RefValue.lean ====
/-
  The reference computes `logits`.

  Its seventeen host operations, read one at a time at an index: the two slices of W1 are its encoder and decoder halves;
  each of the three products contracts the last axis of both operands; the broadcasts put the encoder projection at (b, t),
  the decoder projection at (b, u) and the two biases at their last coordinate under every (b, t, u). Composing them index
  by index gives the term of `logits` with the same grouping.
-/
import proofs.«102611_j14817637171800_2_alg».proof.Proof.Gen.ReferenceIdeal.Read
import proofs.«102611_j14817637171800_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Joint

/-- The reference's result, as the last stage of its run, is `logits` of the arguments. -/
theorem ref_eq (x0 : (⟨S2x256x512, .f32⟩ : BufTy).Contents (Elt Ideal)) (x1 : (⟨S2x64x512, .f32⟩ : BufTy).Contents (Elt Ideal))
    (x2 : (⟨S512x1024, .f32⟩ : BufTy).Contents (Elt Ideal)) (x3 : (⟨S512, .f32⟩ : BufTy).Contents (Elt Ideal))
    (x4 : (⟨S4096x512, .f32⟩ : BufTy).Contents (Elt Ideal)) (x5 : (⟨S4096, .f32⟩ : BufTy).Contents (Elt Ideal)) :
    val_main_v16 (F := Ideal) x0 x1 x2 x3 x4 x5 = logits x0 x1 x2 x3 x4 x5 := by
  funext i
  obtain ⟨b, t, u, v, rfl⟩ : ∃ (b : Fin 2) (t : Fin 256) (u : Fin 64) (v : Fin 4096), i = ix4 b t u v :=
    ⟨i 0, i 1, i 2, i 3, eq_ix4 i⟩
  have e1 : ∀ k d : Fin 512, lidx_main_v2 (idx_main_v4 (idx_main_v6 (lidx_main_v13 (ix4 b t u v) k))) d = (ix3 b t d : S2x256x512.Idx) :=
    fun k d => funext fun a => Fin.ext (by match a with | ⟨0, _⟩ => rfl | ⟨1, _⟩ => rfl | ⟨2, _⟩ => rfl)
  have e2 : ∀ k d : Fin 512, idx_main_v0 (ridx_main_v2 (idx_main_v4 (idx_main_v6 (lidx_main_v13 (ix4 b t u v) k))) d)
      = (ix2 k (colE d) : S512x1024.Idx) :=
    fun k d => funext fun a => Fin.ext (by match a with | ⟨0, _⟩ => rfl | ⟨1, _⟩ => rfl)
  have e3 : ∀ k d : Fin 512, lidx_main_v3 (idx_main_v5 (idx_main_v7 (lidx_main_v13 (ix4 b t u v) k))) d = (ix3 b u d : S2x64x512.Idx) :=
    fun k d => funext fun a => Fin.ext (by match a with | ⟨0, _⟩ => rfl | ⟨1, _⟩ => rfl | ⟨2, _⟩ => rfl)
  have e4 : ∀ k d : Fin 512, idx_main_v1 (ridx_main_v3 (idx_main_v5 (idx_main_v7 (lidx_main_v13 (ix4 b t u v) k))) d)
      = (ix2 k (colD d) : S512x1024.Idx) :=
    fun k d => funext fun a => Fin.ext (by match a with | ⟨0, _⟩ => rfl | ⟨1, _⟩ => rfl)
  have e5 : ∀ k : Fin 512, idx_main_v9 (idx_main_v10 (lidx_main_v13 (ix4 b t u v) k)) = (ix1 k : S512.Idx) :=
    fun k => funext fun a => Fin.ext (by match a with | ⟨0, _⟩ => rfl)
  have e6 : ∀ k : Fin 512, ridx_main_v13 (ix4 b t u v) k = (ix2 v k : S4096x512.Idx) :=
    fun k => funext fun a => Fin.ext (by match a with | ⟨0, _⟩ => rfl | ⟨1, _⟩ => rfl)
  have e7 : idx_main_v14 (idx_main_v15 (ix4 b t u v)) = (ix1 v : S4096.Idx) :=
    funext fun a => Fin.ext (by match a with | ⟨0, _⟩ => rfl)
  rw [val_main_v16_apply, val_main_v13_apply, val_main_v15_apply, val_main_v14_apply]
  simp only [val_main_v12_apply, val_main_v11_apply, val_main_v8_apply, val_main_v10_apply, val_main_v9_apply,
    val_main_v6_apply, val_main_v4_apply, val_main_v2_apply, val_main_v0_apply,
    val_main_v7_apply, val_main_v5_apply, val_main_v3_apply, val_main_v1_apply,
    e1, e2, e3, e4, e5, e6, e7, Ideal.addf_def, Ideal.hostUnary_tanh_def]
  rfl

end Cert.ReferenceIdeal.RefValue

end
-- ==== Proof.lean ====
/-
  The joint network of a transducer, tiled: logits (b, t, u, v) = (∑_k tanh ((enc·We + dec·Wd) + b1) (b, t, u, k) · W2 (v, k)) + b2 v
  over enc [2, 256, 512], dec [2, 64, 512], W1 = [We | Wd] [512, 1024], b1 [512], W2 [4096, 512], b2 [4096].

  The kernel walks a grid of (batch, encoder tile of 32 rows, vocabulary tile of 512 entries), the vocabulary tile innermost.
  At the first vocabulary tile of each (batch, encoder tile) it stores the hidden tile tanh (…) — 32 · 64 rows of 512 hidden
  units — in a scratch buffer, and at every step it multiplies the scratch by the transposed W2 tile and adds the b2 tile.
  The reference computes the same expression on whole arrays. On the extended reals a change of float format is the identity,
  so the two results are the same term index by index: nothing but the re-indexing of tiles, reshapes and broadcasts is needed,
  and the precondition is never opened.

    Spec       the function `logits` of the six arrays
    Pieces     what one step leaves in the scratch and in its output block, as the body's two stored values
    Dots       the body's three products read at an index
    Payloads   the two stored values read at an index
    Blocks     the input blocks of a step as entries of the argument arrays
    Tiles      the hidden tile and the output block over it, as functions of the arrays
    Steps      the scratch holds the step's hidden tile after every step (induction on the step); the block written back
    Final      the blocks tile the result: the result array is `logits`
    RefValue   the reference's seventeen operations compose to `logits`
-/
import proofs.«102611_j14817637171800_2_alg».proof.Defs
import proofs.«102611_j14817637171800_2_alg».proof.Proof.Gen.Kernel
import proofs.«102611_j14817637171800_2_alg».proof.Proof.Gen.Kernel.Skeleton
import proofs.«102611_j14817637171800_2_alg».proof.Proof.Gen.Kernel.Launch
import proofs.«102611_j14817637171800_2_alg».proof.Proof.Gen.Kernel.Points
import proofs.«102611_j14817637171800_2_alg».proof.Proof.Gen.Kernel.Frame
import proofs.«102611_j14817637171800_2_alg».proof.Proof.Gen.KernelIdeal
import proofs.«102611_j14817637171800_2_alg».proof.Proof.Gen.KernelIdeal.Skeleton
import proofs.«102611_j14817637171800_2_alg».proof.Proof.Gen.KernelIdeal.Launch
import proofs.«102611_j14817637171800_2_alg».proof.Proof.Gen.KernelIdeal.Points
import proofs.«102611_j14817637171800_2_alg».proof.Proof.Gen.KernelIdeal.Frame
import proofs.«102611_j14817637171800_2_alg».proof.Proof.Gen.ReferenceIdeal
import proofs.«102611_j14817637171800_2_alg».proof.Proof.Gen.KernelIdeal.Value
import proofs.«102611_j14817637171800_2_alg».proof.Proof.Gen.ReferenceIdeal.Run
import proofs.«102611_j14817637171800_2_alg».proof.Proof.Gen.ReferenceIdeal.Read
import proofs.«102611_j14817637171800_2_alg».proof.Proof.Gen.Pre_finite_inputs
import proofs.«102611_j14817637171800_2_alg».proof.Proof.Final
import proofs.«102611_j14817637171800_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the six arguments both programs end at `logits` of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Joint.logits (Cert.KernelIdeal.Tiles.encA m c) (Cert.KernelIdeal.Tiles.decA m c)
      (Cert.KernelIdeal.Tiles.w1A m c) (Cert.KernelIdeal.Tiles.b1A m c) (Cert.KernelIdeal.Tiles.w2A m c)
      (Cert.KernelIdeal.Tiles.b2A m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
